-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v185) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S40000x128 : Shape := ⟨2, ![40000, 128]⟩
abbrev S2x128x128 : Shape := ⟨3, ![2, 128, 128]⟩
abbrev S2x2x128x128 : Shape := ⟨4, ![2, 2, 128, 128]⟩
abbrev S3 : Shape := ⟨1, ![3]⟩
abbrev S250000 : Shape := ⟨1, ![250000]⟩
abbrev S8192 : Shape := ⟨1, ![8192]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S40000x128 : S_.BroadcastsInDim S40000x128 (![] : Fin 0 → Fin S40000x128.rank)
  reducesTo_S40000x128_S_d0_1 : S40000x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3 .f32) (main_v13 : IVec S_ 1) (main_v16 : IVec S2x2x128x128 1) : IVec S_ 1 :=
  let main_c_5 : IVec S_ 1 := constantI S_ 1 1#1
  let main_v17 : IVec S_ 1 := (fun x v => Host.reduce IntOp.andi x v reducesTo_S2x2x128x128_S_d0_1_2_3 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S10000x128 .f32) (main_arg1 : FVec F S40000x128 .f32) (main_arg2 : FVec F S2x128x128 .f32) (main_arg3 : FVec F S2x2x128x128 .f32) (main_arg4 : FVec F S3 .f32) (main_arg5 : IVec S250000 32) (main_arg6 : IVec S250000 32) (main_arg7 : IVec S250000 32) (main_arg8 : IVec S250000 32) (main_arg9 : IVec S8192 32) (main_arg10 : IVec S8192 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x2x128x128 .f32 := Host.absf main_arg3
  let main_cst_4 : FVec F S_ .f32 := constant S_ .f32 0x7F800000#32
  let main_v15 : FVec F S2x2x128x128 .f32 := broadcastInDim S2x2x128x128 ![] bcast_S_S2x2x128x128 main_cst_4
  let main_v16 : IVec S2x2x128x128 1 := cmpf .olt main_v14 main_v15
  fn_part1 (F := F) main_arg4 main_v13 main_v16
-- ==== Kernel.lean ====
abbrev S10000x128 : Shape := ⟨2, ![10000, 128]⟩
abbrev S40000x128 : Shape := ⟨2, ![40000, 128]⟩
abbrev S2x128x128 : Shape := ⟨3, ![2, 128, 128]⟩
abbrev S2x2x128x128 : Shape := ⟨4, ![2, 2, 128, 128]⟩
abbrev S3 : Shape := ⟨1, ![3]⟩
abbrev S250000 : Shape := ⟨1, ![250000]⟩
abbrev S8192 : Shape := ⟨1, ![8192]⟩
abbrev S50000x128 : Shape := ⟨2, ![50000, 128]⟩
abbrev S_ : Shape := ⟨0, ![]⟩
abbrev S1 : Shape := ⟨1, ![1]⟩
abbrev S1x128x128 : Shape := ⟨3, ![1, 128, 128]⟩
abbrev S128x128 : Shape := ⟨2, ![128, 128]⟩
abbrev S1x1x128x128 : Shape := ⟨4, ![1, 1, 128, 128]⟩
abbrev S250000x1 : Shape := ⟨2, ![250000, 1]⟩
abbrev S250000x128 : Shape := ⟨2, ![250000, 128]⟩
abbrev S50000 : Shape := ⟨1, ![50000]⟩
abbrev S50000x1 : Shape := ⟨2, ![50000, 1]⟩
abbrev S8192x1 : Shape := ⟨2, ![8192, 1]⟩
abbrev S8192x128 : Shape := ⟨2, ![8192, 128]⟩

abbrev nBuf : Space → Nat
  | .hbm => 250
  | .vmem => 3
  | .smem => 0
  | _ => 0

abbrev hbmTy0_0 (i : Nat) : BufTy := match i % 128 with
  | 0 => ⟨S10000x128, .f32⟩
  | 1 => ⟨S40000x128, .f32⟩
  | 2 => ⟨S2x128x128, .f32⟩
  | 3 => ⟨S2x2x128x128, .f32⟩
  | 4 => ⟨S3, .f32⟩
  | 5 => ⟨S250000, .i32⟩
  | 6 => ⟨S250000, .i32⟩
  | 7 => ⟨S250000, .i32⟩
  | 8 => ⟨S250000, .i32⟩
  | 9 => ⟨S8192, .i32⟩
  | 10 => ⟨S8192, .i32⟩
  | 11 => ⟨S50000x128, .f32⟩
  | 12 => ⟨S_, .f32⟩
  | 13 => ⟨S_, .f32⟩
  | 14 => ⟨S_, .f32⟩
  | 15 => ⟨S_, .f32⟩
  | 16 => ⟨S1, .f32⟩
  | 17 => ⟨S3, .f32⟩
  | 18 => ⟨S3, .f32⟩
  | 19 => ⟨S3, .f32⟩
  | 20 => ⟨S_, .f32⟩
  | 21 => ⟨S_, .f32⟩
  | 22 => ⟨S1, .f32⟩
  | 23 => ⟨S3, .f32⟩
  | 24 => ⟨S3, .f32⟩
  | 25 => ⟨S1, .f32⟩
  | 26 => ⟨S_, .f32⟩
  | 27 => ⟨S50000x128, .f32⟩
  | 28 => ⟨S50000x128, .f32⟩
  | 29 => ⟨S_, .i32⟩
  | 30 => ⟨S250000, .i32⟩
  | 31 => ⟨S250000, .i32⟩
  | 32 => ⟨S_, .i32⟩
  | 33 => ⟨S250000, .i32⟩
  | 34 => ⟨S250000, .i32⟩
  | 35 => ⟨S1x128x128, .f32⟩
  | 36 => ⟨S128x128, .f32⟩
  | 37 => ⟨S50000x128, .f32⟩
  | 38 => ⟨S1x1x128x128, .f32⟩
  | 39 => ⟨S128x128, .f32⟩
  | 40 => ⟨S50000x128, .f32⟩
  | 41 => ⟨S_, .i32⟩
  | 42 => ⟨S250000, .i32⟩
  | 43 => ⟨S250000, .i1⟩
  | 44 => ⟨S_, .i32⟩
  | 45 => ⟨S250000, .i32⟩
  | 46 => ⟨S250000, .i32⟩
  | 47 => ⟨S250000, .i32⟩
  | 48 => ⟨S250000x1, .i32⟩
  | 49 => ⟨S250000x128, .f32⟩
  | 50 => ⟨S_, .f32⟩
  | 51 => ⟨S50000, .f32⟩
  | 52 => ⟨S_, .i32⟩
  | 53 => ⟨S250000, .i32⟩
  | 54 => ⟨S250000, .i1⟩
  | 55 => ⟨S_, .i32⟩
  | 56 => ⟨S250000, .i32⟩
  | 57 => ⟨S250000, .i32⟩
  | 58 => ⟨S250000, .i32⟩
  | 59 => ⟨S250000x1, .i32⟩
  | 60 => ⟨S_, .f32⟩
  | 61 => ⟨S250000, .f32⟩
  | 62 => ⟨S50000, .f32⟩
  | 63 => ⟨S_, .f32⟩
  | 64 => ⟨S50000, .f32⟩
  | 65 => ⟨S50000, .f32⟩
  | 66 => ⟨S_, .f32⟩
  | 67 => ⟨S50000x128, .f32⟩
  | 68 => ⟨S_, .i32⟩
  | 69 => ⟨S250000, .i32⟩
  | 70 => ⟨S250000, .i1⟩
  | 71 => ⟨S_, .i32⟩
  | 72 => ⟨S250000, .i32⟩
  | 73 => ⟨S250000, .i32⟩
  | 74 => ⟨S250000, .i32⟩
  | 75 => ⟨S250000x1, .i32⟩
  | 76 => ⟨S50000x128, .f32⟩
  | 77 => ⟨S50000x1, .f32⟩
  | 78 => ⟨S50000x128, .f32⟩
  | 79 => ⟨S50000x128, .f32⟩
  | 80 => ⟨S50000x128, .f32⟩
  | 81 => ⟨S1x1x128x128, .f32⟩
  | 82 => ⟨S128x128, .f32⟩
  | 83 => ⟨S50000x128, .f32⟩
  | 84 => ⟨S_, .i32⟩
  | 85 => ⟨S250000, .i32⟩
  | 86 => ⟨S250000, .i1⟩
  | 87 => ⟨S_, .i32⟩
  | 88 => ⟨S250000, .i32⟩
  | 89 => ⟨S250000, .i32⟩
  | 90 => ⟨S250000, .i32⟩
  | 91 => ⟨S250000x1, .i32⟩
  | 92 => ⟨S250000x128, .f32⟩
  | 93 => ⟨S_, .f32⟩
  | 94 => ⟨S50000, .f32⟩
  | 95 => ⟨S_, .i32⟩
  | 96 => ⟨S250000, .i32⟩
  | 97 => ⟨S250000, .i1⟩
  | 98 => ⟨S_, .i32⟩
  | 99 => ⟨S250000, .i32⟩
  | 100 => ⟨S250000, .i32⟩
  | 101 => ⟨S250000, .i32⟩
  | 102 => ⟨S250000x1, .i32⟩
  | 103 => ⟨S_, .f32⟩
  | 104 => ⟨S250000, .f32⟩
  | 105 => ⟨S50000, .f32⟩
  | 106 => ⟨S_, .f32⟩
  | 107 => ⟨S50000, .f32⟩
  | 108 => ⟨S50000, .f32⟩
  | 109 => ⟨S_, .f32⟩
  | 110 => ⟨S50000x128, .f32⟩
  | 111 => ⟨S_, .i32⟩
  | 112 => ⟨S250000, .i32⟩
  | 113 => ⟨S250000, .i1⟩
  | 114 => ⟨S_, .i32⟩
  | 115 => ⟨S250000, .i32⟩
  | 116 => ⟨S250000, .i32⟩
  | 117 => ⟨S250000, .i32⟩
  | 118 => ⟨S250000x1, .i32⟩
  | 119 => ⟨S50000x128, .f32⟩
  | 120 => ⟨S50000x1, .f32⟩
  | 121 => ⟨S50000x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S1, .f32⟩
  | _ => ⟨S10000x128, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S1x1x128x128, .f32⟩
  | 8 => ⟨S128x128, .f32⟩
  | 9 => ⟨S50000x128, .f32⟩
  | 10 => ⟨S_, .i32⟩
  | 11 => ⟨S250000, .i32⟩
  | 12 => ⟨S250000, .i1⟩
  | 13 => ⟨S_, .i32⟩
  | 14 => ⟨S250000, .i32⟩
  | 15 => ⟨S250000, .i32⟩
  | 16 => ⟨S250000, .i32⟩
  | 17 => ⟨S250000x1, .i32⟩
  | 18 => ⟨S250000x128, .f32⟩
  | 19 => ⟨S_, .f32⟩
  | 20 => ⟨S50000, .f32⟩
  | 21 => ⟨S_, .i32⟩
  | 22 => ⟨S250000, .i32⟩
  | 23 => ⟨S250000, .i1⟩
  | 24 => ⟨S_, .i32⟩
  | 25 => ⟨S250000, .i32⟩
  | 26 => ⟨S250000, .i32⟩
  | 27 => ⟨S250000, .i32⟩
  | 28 => ⟨S250000x1, .i32⟩
  | 29 => ⟨S_, .f32⟩
  | 30 => ⟨S250000, .f32⟩
  | 31 => ⟨S50000, .f32⟩
  | 32 => ⟨S_, .f32⟩
  | 33 => ⟨S50000, .f32⟩
  | 34 => ⟨S50000, .f32⟩
  | 35 => ⟨S_, .f32⟩
  | 36 => ⟨S50000x128, .f32⟩
  | 37 => ⟨S_, .i32⟩
  | 38 => ⟨S250000, .i32⟩
  | 39 => ⟨S250000, .i1⟩
  | 40 => ⟨S_, .i32⟩
  | 41 => ⟨S250000, .i32⟩
  | 42 => ⟨S250000, .i32⟩
  | 43 => ⟨S250000, .i32⟩
  | 44 => ⟨S250000x1, .i32⟩
  | 45 => ⟨S50000x128, .f32⟩
  | 46 => ⟨S50000x1, .f32⟩
  | 47 => ⟨S50000x128, .f32⟩
  | 48 => ⟨S50000x128, .f32⟩
  | 49 => ⟨S50000x128, .f32⟩
  | 50 => ⟨S1x1x128x128, .f32⟩
  | 51 => ⟨S128x128, .f32⟩
  | 52 => ⟨S50000x128, .f32⟩
  | 53 => ⟨S_, .i32⟩
  | 54 => ⟨S250000, .i32⟩
  | 55 => ⟨S250000, .i1⟩
  | 56 => ⟨S_, .i32⟩
  | 57 => ⟨S250000, .i32⟩
  | 58 => ⟨S250000, .i32⟩
  | 59 => ⟨S250000, .i32⟩
  | 60 => ⟨S250000x1, .i32⟩
  | 61 => ⟨S250000x128, .f32⟩
  | 62 => ⟨S_, .f32⟩
  | 63 => ⟨S50000, .f32⟩
  | 64 => ⟨S_, .i32⟩
  | 65 => ⟨S250000, .i32⟩
  | 66 => ⟨S250000, .i1⟩
  | 67 => ⟨S_, .i32⟩
  | 68 => ⟨S250000, .i32⟩
  | 69 => ⟨S250000, .i32⟩
  | 70 => ⟨S250000, .i32⟩
  | 71 => ⟨S250000x1, .i32⟩
  | 72 => ⟨S_, .f32⟩
  | 73 => ⟨S250000, .f32⟩
  | 74 => ⟨S50000, .f32⟩
  | 75 => ⟨S_, .f32⟩
  | 76 => ⟨S50000, .f32⟩
  | 77 => ⟨S50000, .f32⟩
  | 78 => ⟨S_, .f32⟩
  | 79 => ⟨S50000x128, .f32⟩
  | 80 => ⟨S_, .i32⟩
  | 81 => ⟨S250000, .i32⟩
  | 82 => ⟨S250000, .i1⟩
  | 83 => ⟨S_, .i32⟩
  | 84 => ⟨S250000, .i32⟩
  | 85 => ⟨S250000, .i32⟩
  | 86 => ⟨S250000, .i32⟩
  | 87 => ⟨S250000x1, .i32⟩
  | 88 => ⟨S50000x128, .f32⟩
  | 89 => ⟨S50000x1, .f32⟩
  | 90 => ⟨S50000x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S1, .f32⟩
  | 97 => ⟨S_, .f32⟩
  | 98 => ⟨S50000x128, .f32⟩
  | 99 => ⟨S50000x128, .f32⟩
  | 100 => ⟨S50000x128, .f32⟩
  | 101 => ⟨S10000x128, .f32⟩
  | 102 => ⟨S40000x128, .f32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x128, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S8192x128, .f32⟩
  | 121 => ⟨S8192, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8192, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_c_11 : Ref sig .tc := ⟨.hbm, 68, rfl⟩
abbrev main_v44 : Ref sig .tc := ⟨.hbm, 69, rfl⟩
abbrev main_v45 : Ref sig .tc := ⟨.hbm, 70, rfl⟩
abbrev main_c_12 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_c_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_c_16 : Ref sig .tc := ⟨.hbm, 95, rfl⟩
abbrev main_v66 : Ref sig .tc := ⟨.hbm, 96, rfl⟩
abbrev main_v67 : Ref sig .tc := ⟨.hbm, 97, rfl⟩
abbrev main_c_17 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_18 : Ref sig .tc := ⟨.hbm, 103, rfl⟩
abbrev main_v72 : Ref sig .tc := ⟨.hbm, 104, rfl⟩
abbrev main_v73 : Ref sig .tc := ⟨.hbm, 105, rfl⟩
abbrev main_cst_19 : Ref sig .tc := ⟨.hbm, 106, rfl⟩
abbrev main_v74 : Ref sig .tc := ⟨.hbm, 107, rfl⟩
abbrev main_v75 : Ref sig .tc := ⟨.hbm, 108, rfl⟩
abbrev main_cst_20 : Ref sig .tc := ⟨.hbm, 109, rfl⟩
abbrev main_v76 : Ref sig .tc := ⟨.hbm, 110, rfl⟩
abbrev main_c_21 : Ref sig .tc := ⟨.hbm, 111, rfl⟩
abbrev main_v77 : Ref sig .tc := ⟨.hbm, 112, rfl⟩
abbrev main_v78 : Ref sig .tc := ⟨.hbm, 113, rfl⟩
abbrev main_c_22 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call0_cst : Ref sig .tc := ⟨.hbm, 124, rfl⟩
abbrev main_call0_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_23 : Ref sig .tc := ⟨.hbm, 138, rfl⟩
abbrev main_v100 : Ref sig .tc := ⟨.hbm, 139, rfl⟩
abbrev main_v101 : Ref sig .tc := ⟨.hbm, 140, rfl⟩
abbrev main_c_24 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_25 : Ref sig .tc := ⟨.hbm, 147, rfl⟩
abbrev main_v107 : Ref sig .tc := ⟨.hbm, 148, rfl⟩
abbrev main_c_26 : Ref sig .tc := ⟨.hbm, 149, rfl⟩
abbrev main_v108 : Ref sig .tc := ⟨.hbm, 150, rfl⟩
abbrev main_v109 : Ref sig .tc := ⟨.hbm, 151, rfl⟩
abbrev main_c_27 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_28 : Ref sig .tc := ⟨.hbm, 157, rfl⟩
abbrev main_v114 : Ref sig .tc := ⟨.hbm, 158, rfl⟩
abbrev main_v115 : Ref sig .tc := ⟨.hbm, 159, rfl⟩
abbrev main_cst_29 : Ref sig .tc := ⟨.hbm, 160, rfl⟩
abbrev main_v116 : Ref sig .tc := ⟨.hbm, 161, rfl⟩
abbrev main_v117 : Ref sig .tc := ⟨.hbm, 162, rfl⟩
abbrev main_cst_30 : Ref sig .tc := ⟨.hbm, 163, rfl⟩
abbrev main_v118 : Ref sig .tc := ⟨.hbm, 164, rfl⟩
abbrev main_c_31 : Ref sig .tc := ⟨.hbm, 165, rfl⟩
abbrev main_v119 : Ref sig .tc := ⟨.hbm, 166, rfl⟩
abbrev main_v120 : Ref sig .tc := ⟨.hbm, 167, rfl⟩
abbrev main_c_32 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_c_33 : Ref sig .tc := ⟨.hbm, 181, rfl⟩
abbrev main_v133 : Ref sig .tc := ⟨.hbm, 182, rfl⟩
abbrev main_v134 : Ref sig .tc := ⟨.hbm, 183, rfl⟩
abbrev main_c_34 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_35 : Ref sig .tc := ⟨.hbm, 190, rfl⟩
abbrev main_v140 : Ref sig .tc := ⟨.hbm, 191, rfl⟩
abbrev main_c_36 : Ref sig .tc := ⟨.hbm, 192, rfl⟩
abbrev main_v141 : Ref sig .tc := ⟨.hbm, 193, rfl⟩
abbrev main_v142 : Ref sig .tc := ⟨.hbm, 194, rfl⟩
abbrev main_c_37 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_38 : Ref sig .tc := ⟨.hbm, 200, rfl⟩
abbrev main_v147 : Ref sig .tc := ⟨.hbm, 201, rfl⟩
abbrev main_v148 : Ref sig .tc := ⟨.hbm, 202, rfl⟩
abbrev main_cst_39 : Ref sig .tc := ⟨.hbm, 203, rfl⟩
abbrev main_v149 : Ref sig .tc := ⟨.hbm, 204, rfl⟩
abbrev main_v150 : Ref sig .tc := ⟨.hbm, 205, rfl⟩
abbrev main_cst_40 : Ref sig .tc := ⟨.hbm, 206, rfl⟩
abbrev main_v151 : Ref sig .tc := ⟨.hbm, 207, rfl⟩
abbrev main_c_41 : Ref sig .tc := ⟨.hbm, 208, rfl⟩
abbrev main_v152 : Ref sig .tc := ⟨.hbm, 209, rfl⟩
abbrev main_v153 : Ref sig .tc := ⟨.hbm, 210, rfl⟩
abbrev main_c_42 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_call1_cst : Ref sig .tc := ⟨.hbm, 221, rfl⟩
abbrev main_call1_v0 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_c_43 : Ref sig .tc := ⟨.hbm, 231, rfl⟩
abbrev main_v171 : Ref sig .tc := ⟨.hbm, 232, rfl⟩
abbrev main_v172 : Ref sig .tc := ⟨.hbm, 233, rfl⟩
abbrev main_c_44 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_c_45 : Ref sig .tc := ⟨.hbm, 240, rfl⟩
abbrev main_v178 : Ref sig .tc := ⟨.hbm, 241, rfl⟩
abbrev main_v179 : Ref sig .tc := ⟨.hbm, 242, rfl⟩
abbrev main_c_46 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  concatenates_S10000x128_S40000x128_S50000x128_d0 : Shape.Concatenates [S10000x128, S40000x128] S50000x128 0
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S3_S1_0 : S3.Slices ![0] S1
  shapeCasts_S1_S_ : S1.ShapeCasts S_
  bcast_S_S50000x128 : S_.BroadcastsInDim S50000x128 (![] : Fin 0 → Fin S50000x128.rank)
  bcast_S_S250000 : S_.BroadcastsInDim S250000 (![] : Fin 0 → Fin S250000.rank)
  slices_S2x128x128_S1x128x128_0_0_0 : S2x128x128.Slices ![0, 0, 0] S1x128x128
  shapeCasts_S1x128x128_S128x128 : S1x128x128.ShapeCasts S128x128
  slices_S2x2x128x128_S1x1x128x128_0_0_0_0 : S2x2x128x128.Slices ![0, 0, 0, 0] S1x1x128x128
  shapeCasts_S1x1x128x128_S128x128 : S1x1x128x128.ShapeCasts S128x128
  bcast_S250000_S250000x1_0 : S250000.BroadcastsInDim S250000x1 (![0] : Fin 1 → Fin S250000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x2x128x128_S1x1x128x128_0_1_0_0 : S2x2x128x128.Slices ![0, 1, 0, 0] S1x1x128x128
  slices_S3_S1_1 : S3.Slices ![1] S1
  slices_S2x128x128_S1x128x128_1_0_0 : S2x128x128.Slices ![1, 0, 0] S1x128x128
  slices_S2x2x128x128_S1x1x128x128_1_0_0_0 : S2x2x128x128.Slices ![1, 0, 0, 0] S1x1x128x128
  slices_S2x2x128x128_S1x1x128x128_1_1_0_0 : S2x2x128x128.Slices ![1, 1, 0, 0] S1x1x128x128
  slices_S3_S1_2 : S3.Slices ![2] S1
  slices_S50000x128_S10000x128_0_0 : S50000x128.Slices ![0, 0] S10000x128
  slices_S50000x128_S40000x128_10000_0 : S50000x128.Slices ![10000, 0] S40000x128
  bcast_S_S8192 : S_.BroadcastsInDim S8192 (![] : Fin 0 → Fin S8192.rank)
  bcast_S8192_S8192x1_0 : S8192.BroadcastsInDim S8192x1 (![0] : Fin 1 → Fin S8192x1.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  inb_S8192_S8192_0 : ∀ a, (![0] : Fin 1 → Nat) a + S8192.size a ≤ S8192.size a
  h_S8192 : 0 < S8192.numel
  dot_S50000x128_S128x128_S50000x128_1_0_0_1_n_n_wf : DotDims.WF S50000x128 S128x128 S50000x128 [1] [0] [0] [1] [] []
  gather_S50000x128_S250000x1_S250000x128_1_0_n_n_0_1_1128_wf : GatherDims.WF S50000x128 S250000x1 S250000x128 [1] [0] [] [0] [] 1 ![1, 128]
  scatter_S50000_S250000x1_S250000_n_0_0_1_wf : ScatterDims.WF S50000 S250000x1 S250000 [] [0] [0] 1
  scatter_S50000x128_S250000x1_S250000x128_1_0_0_1_wf : ScatterDims.WF S50000x128 S250000x1 S250000x128 [1] [0] [0] 1
  gather_S10000x128_S8192x1_S8192x128_1_0_n_n_0_1_1128_wf : GatherDims.WF S10000x128 S8192x1 S8192x128 [1] [0] [] [0] [] 1 ![1, 128]
  gather_S40000x128_S8192x1_S8192x128_1_0_n_n_0_1_1128_wf : GatherDims.WF S40000x128 S8192x1 S8192x128 [1] [0] [] [0] [] 1 ![1, 128]
  hstage0_0 : ∀ j, (stage0_0 j).IsWhole
  hstage0_1 : ∀ j, (stage0_1 j).IsWhole
  hstage0_2 : ∀ j, (stage0_2 j).IsWhole

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def gather_S10000x128_S8192x1_S8192x128_1_0_n_n_0_1_1128 : GatherDims S10000x128 S8192x1 S8192x128 where
  offsetDims := [1]
  collapsedSliceDims := [0]
  operandBatchingDims := []
  startIndicesBatchingDims := []
  startIndexMap := [0]
  indexVectorDim := 1
  sliceSizes := ![1, 128]
  wf := gather_S10000x128_S8192x1_S8192x128_1_0_n_n_0_1_1128_wf
def gather_S40000x128_S8192x1_S8192x128_1_0_n_n_0_1_1128 : GatherDims S40000x128 S8192x1 S8192x128 where
  offsetDims := [1]
  collapsedSliceDims := [0]
  operandBatchingDims := []
  startIndicesBatchingDims := []
  startIndexMap := [0]
  indexVectorDim := 1
  sliceSizes := ![1, 128]
  wf := gather_S40000x128_S8192x1_S8192x128_1_0_n_n_0_1_1128_wf

abbrev win0_0 : Pipeline.Window sig grid0 :=
  Pipeline.Window.whole (Memref.whole main_v177) false false (stage0_0 0) (sem0_0 0) (Memref.isWhole_whole _) (hstage0_0 0)

abbrev win0_1 : Pipeline.Window sig grid0 :=
  Pipeline.Window.whole (Memref.whole main_v184) false false (stage0_1 0) (sem0_1 0) (Memref.isWhole_whole _) (hstage0_1 0)

abbrev win0_2 : Pipeline.Window sig grid0 :=
  Pipeline.Window.whole (Memref.whole main_v185) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x128 : Shape := ⟨2, ![10000, 128]⟩
abbrev S40000x128 : Shape := ⟨2, ![40000, 128]⟩
abbrev S2x128x128 : Shape := ⟨3, ![2, 128, 128]⟩
abbrev S2x2x128x128 : Shape := ⟨4, ![2, 2, 128, 128]⟩
abbrev S3 : Shape := ⟨1, ![3]⟩
abbrev S250000 : Shape := ⟨1, ![250000]⟩
abbrev S8192 : Shape := ⟨1, ![8192]⟩
abbrev S50000x128 : Shape := ⟨2, ![50000, 128]⟩
abbrev S_ : Shape := ⟨0, ![]⟩
abbrev S1 : Shape := ⟨1, ![1]⟩
abbrev S1x128x128 : Shape := ⟨3, ![1, 128, 128]⟩
abbrev S128x128 : Shape := ⟨2, ![128, 128]⟩
abbrev S250000x1 : Shape := ⟨2, ![250000, 1]⟩
abbrev S250000x128 : Shape := ⟨2, ![250000, 128]⟩
abbrev S1x1x128x128 : Shape := ⟨4, ![1, 1, 128, 128]⟩
abbrev S50000 : Shape := ⟨1, ![50000]⟩
abbrev S50000x1 : Shape := ⟨2, ![50000, 1]⟩
abbrev S8192x1 : Shape := ⟨2, ![8192, 1]⟩
abbrev S8192x128 : Shape := ⟨2, ![8192, 128]⟩

abbrev nBuf : Space → Nat
  | .hbm => 252
  | .vmem => 0
  | .smem => 0
  | _ => 0

abbrev hbmTy0_0 (i : Nat) : BufTy := match i % 128 with
  | 0 => ⟨S10000x128, .f32⟩
  | 1 => ⟨S40000x128, .f32⟩
  | 2 => ⟨S2x128x128, .f32⟩
  | 3 => ⟨S2x2x128x128, .f32⟩
  | 4 => ⟨S3, .f32⟩
  | 5 => ⟨S250000, .i32⟩
  | 6 => ⟨S250000, .i32⟩
  | 7 => ⟨S250000, .i32⟩
  | 8 => ⟨S250000, .i32⟩
  | 9 => ⟨S8192, .i32⟩
  | 10 => ⟨S8192, .i32⟩
  | 11 => ⟨S50000x128, .f32⟩
  | 12 => ⟨S_, .f32⟩
  | 13 => ⟨S_, .f32⟩
  | 14 => ⟨S_, .f32⟩
  | 15 => ⟨S_, .f32⟩
  | 16 => ⟨S1, .f32⟩
  | 17 => ⟨S3, .f32⟩
  | 18 => ⟨S3, .f32⟩
  | 19 => ⟨S3, .f32⟩
  | 20 => ⟨S_, .f32⟩
  | 21 => ⟨S_, .f32⟩
  | 22 => ⟨S1, .f32⟩
  | 23 => ⟨S3, .f32⟩
  | 24 => ⟨S3, .f32⟩
  | 25 => ⟨S1, .f32⟩
  | 26 => ⟨S_, .f32⟩
  | 27 => ⟨S50000x128, .f32⟩
  | 28 => ⟨S50000x128, .f32⟩
  | 29 => ⟨S_, .i32⟩
  | 30 => ⟨S250000, .i32⟩
  | 31 => ⟨S250000, .i32⟩
  | 32 => ⟨S_, .i32⟩
  | 33 => ⟨S250000, .i32⟩
  | 34 => ⟨S250000, .i32⟩
  | 35 => ⟨S1x128x128, .f32⟩
  | 36 => ⟨S128x128, .f32⟩
  | 37 => ⟨S50000x128, .f32⟩
  | 38 => ⟨S_, .i32⟩
  | 39 => ⟨S250000, .i32⟩
  | 40 => ⟨S250000, .i1⟩
  | 41 => ⟨S_, .i32⟩
  | 42 => ⟨S250000, .i32⟩
  | 43 => ⟨S250000, .i32⟩
  | 44 => ⟨S250000, .i32⟩
  | 45 => ⟨S250000x1, .i32⟩
  | 46 => ⟨S250000x128, .f32⟩
  | 47 => ⟨S1x1x128x128, .f32⟩
  | 48 => ⟨S128x128, .f32⟩
  | 49 => ⟨S250000x128, .f32⟩
  | 50 => ⟨S_, .f32⟩
  | 51 => ⟨S50000, .f32⟩
  | 52 => ⟨S_, .i32⟩
  | 53 => ⟨S250000, .i32⟩
  | 54 => ⟨S250000, .i1⟩
  | 55 => ⟨S_, .i32⟩
  | 56 => ⟨S250000, .i32⟩
  | 57 => ⟨S250000, .i32⟩
  | 58 => ⟨S250000, .i32⟩
  | 59 => ⟨S250000x1, .i32⟩
  | 60 => ⟨S_, .f32⟩
  | 61 => ⟨S250000, .f32⟩
  | 62 => ⟨S50000, .f32⟩
  | 63 => ⟨S_, .f32⟩
  | 64 => ⟨S50000, .f32⟩
  | 65 => ⟨S50000, .f32⟩
  | 66 => ⟨S_, .f32⟩
  | 67 => ⟨S50000x128, .f32⟩
  | 68 => ⟨S_, .i32⟩
  | 69 => ⟨S250000, .i32⟩
  | 70 => ⟨S250000, .i1⟩
  | 71 => ⟨S_, .i32⟩
  | 72 => ⟨S250000, .i32⟩
  | 73 => ⟨S250000, .i32⟩
  | 74 => ⟨S250000, .i32⟩
  | 75 => ⟨S250000x1, .i32⟩
  | 76 => ⟨S50000x128, .f32⟩
  | 77 => ⟨S50000x1, .f32⟩
  | 78 => ⟨S50000x128, .f32⟩
  | 79 => ⟨S50000x128, .f32⟩
  | 80 => ⟨S50000x128, .f32⟩
  | 81 => ⟨S_, .i32⟩
  | 82 => ⟨S250000, .i32⟩
  | 83 => ⟨S250000, .i1⟩
  | 84 => ⟨S_, .i32⟩
  | 85 => ⟨S250000, .i32⟩
  | 86 => ⟨S250000, .i32⟩
  | 87 => ⟨S250000, .i32⟩
  | 88 => ⟨S250000x1, .i32⟩
  | 89 => ⟨S250000x128, .f32⟩
  | 90 => ⟨S1x1x128x128, .f32⟩
  | 91 => ⟨S128x128, .f32⟩
  | 92 => ⟨S250000x128, .f32⟩
  | 93 => ⟨S_, .f32⟩
  | 94 => ⟨S50000, .f32⟩
  | 95 => ⟨S_, .i32⟩
  | 96 => ⟨S250000, .i32⟩
  | 97 => ⟨S250000, .i1⟩
  | 98 => ⟨S_, .i32⟩
  | 99 => ⟨S250000, .i32⟩
  | 100 => ⟨S250000, .i32⟩
  | 101 => ⟨S250000, .i32⟩
  | 102 => ⟨S250000x1, .i32⟩
  | 103 => ⟨S_, .f32⟩
  | 104 => ⟨S250000, .f32⟩
  | 105 => ⟨S50000, .f32⟩
  | 106 => ⟨S_, .f32⟩
  | 107 => ⟨S50000, .f32⟩
  | 108 => ⟨S50000, .f32⟩
  | 109 => ⟨S_, .f32⟩
  | 110 => ⟨S50000x128, .f32⟩
  | 111 => ⟨S_, .i32⟩
  | 112 => ⟨S250000, .i32⟩
  | 113 => ⟨S250000, .i1⟩
  | 114 => ⟨S_, .i32⟩
  | 115 => ⟨S250000, .i32⟩
  | 116 => ⟨S250000, .i32⟩
  | 117 => ⟨S250000, .i32⟩
  | 118 => ⟨S250000x1, .i32⟩
  | 119 => ⟨S50000x128, .f32⟩
  | 120 => ⟨S50000x1, .f32⟩
  | 121 => ⟨S50000x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S1, .f32⟩
  | _ => ⟨S10000x128, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S_, .i32⟩
  | 8 => ⟨S250000, .i32⟩
  | 9 => ⟨S250000, .i1⟩
  | 10 => ⟨S_, .i32⟩
  | 11 => ⟨S250000, .i32⟩
  | 12 => ⟨S250000, .i32⟩
  | 13 => ⟨S250000, .i32⟩
  | 14 => ⟨S250000x1, .i32⟩
  | 15 => ⟨S250000x128, .f32⟩
  | 16 => ⟨S1x1x128x128, .f32⟩
  | 17 => ⟨S128x128, .f32⟩
  | 18 => ⟨S250000x128, .f32⟩
  | 19 => ⟨S_, .f32⟩
  | 20 => ⟨S50000, .f32⟩
  | 21 => ⟨S_, .i32⟩
  | 22 => ⟨S250000, .i32⟩
  | 23 => ⟨S250000, .i1⟩
  | 24 => ⟨S_, .i32⟩
  | 25 => ⟨S250000, .i32⟩
  | 26 => ⟨S250000, .i32⟩
  | 27 => ⟨S250000, .i32⟩
  | 28 => ⟨S250000x1, .i32⟩
  | 29 => ⟨S_, .f32⟩
  | 30 => ⟨S250000, .f32⟩
  | 31 => ⟨S50000, .f32⟩
  | 32 => ⟨S_, .f32⟩
  | 33 => ⟨S50000, .f32⟩
  | 34 => ⟨S50000, .f32⟩
  | 35 => ⟨S_, .f32⟩
  | 36 => ⟨S50000x128, .f32⟩
  | 37 => ⟨S_, .i32⟩
  | 38 => ⟨S250000, .i32⟩
  | 39 => ⟨S250000, .i1⟩
  | 40 => ⟨S_, .i32⟩
  | 41 => ⟨S250000, .i32⟩
  | 42 => ⟨S250000, .i32⟩
  | 43 => ⟨S250000, .i32⟩
  | 44 => ⟨S250000x1, .i32⟩
  | 45 => ⟨S50000x128, .f32⟩
  | 46 => ⟨S50000x1, .f32⟩
  | 47 => ⟨S50000x128, .f32⟩
  | 48 => ⟨S50000x128, .f32⟩
  | 49 => ⟨S50000x128, .f32⟩
  | 50 => ⟨S_, .i32⟩
  | 51 => ⟨S250000, .i32⟩
  | 52 => ⟨S250000, .i1⟩
  | 53 => ⟨S_, .i32⟩
  | 54 => ⟨S250000, .i32⟩
  | 55 => ⟨S250000, .i32⟩
  | 56 => ⟨S250000, .i32⟩
  | 57 => ⟨S250000x1, .i32⟩
  | 58 => ⟨S250000x128, .f32⟩
  | 59 => ⟨S1x1x128x128, .f32⟩
  | 60 => ⟨S128x128, .f32⟩
  | 61 => ⟨S250000x128, .f32⟩
  | 62 => ⟨S_, .f32⟩
  | 63 => ⟨S50000, .f32⟩
  | 64 => ⟨S_, .i32⟩
  | 65 => ⟨S250000, .i32⟩
  | 66 => ⟨S250000, .i1⟩
  | 67 => ⟨S_, .i32⟩
  | 68 => ⟨S250000, .i32⟩
  | 69 => ⟨S250000, .i32⟩
  | 70 => ⟨S250000, .i32⟩
  | 71 => ⟨S250000x1, .i32⟩
  | 72 => ⟨S_, .f32⟩
  | 73 => ⟨S250000, .f32⟩
  | 74 => ⟨S50000, .f32⟩
  | 75 => ⟨S_, .f32⟩
  | 76 => ⟨S50000, .f32⟩
  | 77 => ⟨S50000, .f32⟩
  | 78 => ⟨S_, .f32⟩
  | 79 => ⟨S50000x128, .f32⟩
  | 80 => ⟨S_, .i32⟩
  | 81 => ⟨S250000, .i32⟩
  | 82 => ⟨S250000, .i1⟩
  | 83 => ⟨S_, .i32⟩
  | 84 => ⟨S250000, .i32⟩
  | 85 => ⟨S250000, .i32⟩
  | 86 => ⟨S250000, .i32⟩
  | 87 => ⟨S250000x1, .i32⟩
  | 88 => ⟨S50000x128, .f32⟩
  | 89 => ⟨S50000x1, .f32⟩
  | 90 => ⟨S50000x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S1, .f32⟩
  | 97 => ⟨S_, .f32⟩
  | 98 => ⟨S50000x128, .f32⟩
  | 99 => ⟨S50000x128, .f32⟩
  | 100 => ⟨S50000x128, .f32⟩
  | 101 => ⟨S10000x128, .f32⟩
  | 102 => ⟨S40000x128, .f32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x128, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S8192x128, .f32⟩
  | 121 => ⟨S8192x128, .f32⟩
  | 122 => ⟨S_, .f32⟩
  | 123 => ⟨S8192, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_c_11 : Ref sig .tc := ⟨.hbm, 68, rfl⟩
abbrev main_v44 : Ref sig .tc := ⟨.hbm, 69, rfl⟩
abbrev main_v45 : Ref sig .tc := ⟨.hbm, 70, rfl⟩
abbrev main_c_12 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_v56 : Ref sig .tc := ⟨.hbm, 83, rfl⟩
abbrev main_c_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_c_16 : Ref sig .tc := ⟨.hbm, 95, rfl⟩
abbrev main_v66 : Ref sig .tc := ⟨.hbm, 96, rfl⟩
abbrev main_v67 : Ref sig .tc := ⟨.hbm, 97, rfl⟩
abbrev main_c_17 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_18 : Ref sig .tc := ⟨.hbm, 103, rfl⟩
abbrev main_v72 : Ref sig .tc := ⟨.hbm, 104, rfl⟩
abbrev main_v73 : Ref sig .tc := ⟨.hbm, 105, rfl⟩
abbrev main_cst_19 : Ref sig .tc := ⟨.hbm, 106, rfl⟩
abbrev main_v74 : Ref sig .tc := ⟨.hbm, 107, rfl⟩
abbrev main_v75 : Ref sig .tc := ⟨.hbm, 108, rfl⟩
abbrev main_cst_20 : Ref sig .tc := ⟨.hbm, 109, rfl⟩
abbrev main_v76 : Ref sig .tc := ⟨.hbm, 110, rfl⟩
abbrev main_c_21 : Ref sig .tc := ⟨.hbm, 111, rfl⟩
abbrev main_v77 : Ref sig .tc := ⟨.hbm, 112, rfl⟩
abbrev main_v78 : Ref sig .tc := ⟨.hbm, 113, rfl⟩
abbrev main_c_22 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call0_cst : Ref sig .tc := ⟨.hbm, 124, rfl⟩
abbrev main_call0_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_23 : Ref sig .tc := ⟨.hbm, 135, rfl⟩
abbrev main_v97 : Ref sig .tc := ⟨.hbm, 136, rfl⟩
abbrev main_v98 : Ref sig .tc := ⟨.hbm, 137, rfl⟩
abbrev main_c_24 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_25 : Ref sig .tc := ⟨.hbm, 147, rfl⟩
abbrev main_v107 : Ref sig .tc := ⟨.hbm, 148, rfl⟩
abbrev main_c_26 : Ref sig .tc := ⟨.hbm, 149, rfl⟩
abbrev main_v108 : Ref sig .tc := ⟨.hbm, 150, rfl⟩
abbrev main_v109 : Ref sig .tc := ⟨.hbm, 151, rfl⟩
abbrev main_c_27 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_28 : Ref sig .tc := ⟨.hbm, 157, rfl⟩
abbrev main_v114 : Ref sig .tc := ⟨.hbm, 158, rfl⟩
abbrev main_v115 : Ref sig .tc := ⟨.hbm, 159, rfl⟩
abbrev main_cst_29 : Ref sig .tc := ⟨.hbm, 160, rfl⟩
abbrev main_v116 : Ref sig .tc := ⟨.hbm, 161, rfl⟩
abbrev main_v117 : Ref sig .tc := ⟨.hbm, 162, rfl⟩
abbrev main_cst_30 : Ref sig .tc := ⟨.hbm, 163, rfl⟩
abbrev main_v118 : Ref sig .tc := ⟨.hbm, 164, rfl⟩
abbrev main_c_31 : Ref sig .tc := ⟨.hbm, 165, rfl⟩
abbrev main_v119 : Ref sig .tc := ⟨.hbm, 166, rfl⟩
abbrev main_v120 : Ref sig .tc := ⟨.hbm, 167, rfl⟩
abbrev main_c_32 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_c_33 : Ref sig .tc := ⟨.hbm, 178, rfl⟩
abbrev main_v130 : Ref sig .tc := ⟨.hbm, 179, rfl⟩
abbrev main_v131 : Ref sig .tc := ⟨.hbm, 180, rfl⟩
abbrev main_c_34 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_35 : Ref sig .tc := ⟨.hbm, 190, rfl⟩
abbrev main_v140 : Ref sig .tc := ⟨.hbm, 191, rfl⟩
abbrev main_c_36 : Ref sig .tc := ⟨.hbm, 192, rfl⟩
abbrev main_v141 : Ref sig .tc := ⟨.hbm, 193, rfl⟩
abbrev main_v142 : Ref sig .tc := ⟨.hbm, 194, rfl⟩
abbrev main_c_37 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_38 : Ref sig .tc := ⟨.hbm, 200, rfl⟩
abbrev main_v147 : Ref sig .tc := ⟨.hbm, 201, rfl⟩
abbrev main_v148 : Ref sig .tc := ⟨.hbm, 202, rfl⟩
abbrev main_cst_39 : Ref sig .tc := ⟨.hbm, 203, rfl⟩
abbrev main_v149 : Ref sig .tc := ⟨.hbm, 204, rfl⟩
abbrev main_v150 : Ref sig .tc := ⟨.hbm, 205, rfl⟩
abbrev main_cst_40 : Ref sig .tc := ⟨.hbm, 206, rfl⟩
abbrev main_v151 : Ref sig .tc := ⟨.hbm, 207, rfl⟩
abbrev main_c_41 : Ref sig .tc := ⟨.hbm, 208, rfl⟩
abbrev main_v152 : Ref sig .tc := ⟨.hbm, 209, rfl⟩
abbrev main_v153 : Ref sig .tc := ⟨.hbm, 210, rfl⟩
abbrev main_c_42 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_call1_cst : Ref sig .tc := ⟨.hbm, 221, rfl⟩
abbrev main_call1_v0 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_c_43 : Ref sig .tc := ⟨.hbm, 231, rfl⟩
abbrev main_v171 : Ref sig .tc := ⟨.hbm, 232, rfl⟩
abbrev main_v172 : Ref sig .tc := ⟨.hbm, 233, rfl⟩
abbrev main_c_44 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_c_45 : Ref sig .tc := ⟨.hbm, 240, rfl⟩
abbrev main_v178 : Ref sig .tc := ⟨.hbm, 241, rfl⟩
abbrev main_v179 : Ref sig .tc := ⟨.hbm, 242, rfl⟩
abbrev main_c_46 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_cst_47 : Ref sig .tc := ⟨.hbm, 250, rfl⟩
abbrev main_v186 : Ref sig .tc := ⟨.hbm, 251, rfl⟩

abbrev nD : Nat := 1
abbrev τ : Topo := Topo.v7x

variable {F : FTy → Type} [FloatOps F]

class Facts₀ : Prop where
  concatenates_S10000x128_S40000x128_S50000x128_d0 : Shape.Concatenates [S10000x128, S40000x128] S50000x128 0
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S3_S1_0 : S3.Slices ![0] S1
  shapeCasts_S1_S_ : S1.ShapeCasts S_
  bcast_S_S50000x128 : S_.BroadcastsInDim S50000x128 (![] : Fin 0 → Fin S50000x128.rank)
  bcast_S_S250000 : S_.BroadcastsInDim S250000 (![] : Fin 0 → Fin S250000.rank)
  slices_S2x128x128_S1x128x128_0_0_0 : S2x128x128.Slices ![0, 0, 0] S1x128x128
  shapeCasts_S1x128x128_S128x128 : S1x128x128.ShapeCasts S128x128
  bcast_S250000_S250000x1_0 : S250000.BroadcastsInDim S250000x1 (![0] : Fin 1 → Fin S250000x1.rank)
  slices_S2x2x128x128_S1x1x128x128_0_0_0_0 : S2x2x128x128.Slices ![0, 0, 0, 0] S1x1x128x128
  shapeCasts_S1x1x128x128_S128x128 : S1x1x128x128.ShapeCasts S128x128
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x2x128x128_S1x1x128x128_0_1_0_0 : S2x2x128x128.Slices ![0, 1, 0, 0] S1x1x128x128
  slices_S3_S1_1 : S3.Slices ![1] S1
  slices_S2x128x128_S1x128x128_1_0_0 : S2x128x128.Slices ![1, 0, 0] S1x128x128
  slices_S2x2x128x128_S1x1x128x128_1_0_0_0 : S2x2x128x128.Slices ![1, 0, 0, 0] S1x1x128x128
  slices_S2x2x128x128_S1x1x128x128_1_1_0_0 : S2x2x128x128.Slices ![1, 1, 0, 0] S1x1x128x128
  slices_S3_S1_2 : S3.Slices ![2] S1
  slices_S50000x128_S10000x128_0_0 : S50000x128.Slices ![0, 0] S10000x128
  slices_S50000x128_S40000x128_10000_0 : S50000x128.Slices ![10000, 0] S40000x128
  bcast_S_S8192 : S_.BroadcastsInDim S8192 (![] : Fin 0 → Fin S8192.rank)
  bcast_S8192_S8192x1_0 : S8192.BroadcastsInDim S8192x1 (![0] : Fin 1 → Fin S8192x1.rank)
  reducesTo_S8192x128_S8192_d1 : S8192x128.ReducesTo [1] S8192
  dot_S50000x128_S128x128_S50000x128_1_0_0_1_n_n_wf : DotDims.WF S50000x128 S128x128 S50000x128 [1] [0] [0] [1] [] []
  gather_S50000x128_S250000x1_S250000x128_1_0_n_n_0_1_1128_wf : GatherDims.WF S50000x128 S250000x1 S250000x128 [1] [0] [] [0] [] 1 ![1, 128]
  dot_S250000x128_S128x128_S250000x128_1_0_0_1_n_n_wf : DotDims.WF S250000x128 S128x128 S250000x128 [1] [0] [0] [1] [] []
  scatter_S50000_S250000x1_S250000_n_0_0_1_wf : ScatterDims.WF S50000 S250000x1 S250000 [] [0] [0] 1
  scatter_S50000x128_S250000x1_S250000x128_1_0_0_1_wf : ScatterDims.WF S50000x128 S250000x1 S250000x128 [1] [0] [0] 1
  gather_S10000x128_S8192x1_S8192x128_1_0_n_n_0_1_1128_wf : GatherDims.WF S10000x128 S8192x1 S8192x128 [1] [0] [] [0] [] 1 ![1, 128]
  gather_S40000x128_S8192x1_S8192x128_1_0_n_n_0_1_1128_wf : GatherDims.WF S40000x128 S8192x1 S8192x128 [1] [0] [] [0] [] 1 ![1, 128]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def dot_S250000x128_S128x128_S250000x128_1_0_0_1_n_n : DotDims S250000x128 S128x128 S250000x128 where
  lhsContracting := [1]
  rhsContracting := [0]
  lhsNonContracting := [0]
  rhsNonContracting := [1]
  lhsBatch := []
  rhsBatch := []
  wf := dot_S250000x128_S128x128_S250000x128_1_0_0_1_n_n_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def gather_S10000x128_S8192x1_S8192x128_1_0_n_n_0_1_1128 : GatherDims S10000x128 S8192x1 S8192x128 where
  offsetDims := [1]
  collapsedSliceDims := [0]
  operandBatchingDims := []
  startIndicesBatchingDims := []
  startIndexMap := [0]
  indexVectorDim := 1
  sliceSizes := ![1, 128]
  wf := gather_S10000x128_S8192x1_S8192x128_1_0_n_n_0_1_1128_wf
def gather_S40000x128_S8192x1_S8192x128_1_0_n_n_0_1_1128 : GatherDims S40000x128 S8192x1 S8192x128 where
  offsetDims := [1]
  collapsedSliceDims := [0]
  operandBatchingDims := []
  startIndicesBatchingDims := []
  startIndexMap := [0]
  indexVectorDim := 1
  sliceSizes := ![1, 128]
  wf := gather_S40000x128_S8192x1_S8192x128_1_0_n_n_0_1_1128_wf

class Facts : Prop extends Facts₀ where

variable [Facts]
-- ==== Proof.RowDot.lean ====
/-
  The last step of both programs is a row-wise dot product of two `[8192, 128]` arrays: entry `i` of the result is
  `∑ k < 128, a[i, k] · b[i, k]`.  The kernel computes it in its body as an elementwise product followed by a lane sum
  from the zero accumulator; the reference as an elementwise product followed by a sum over axis 1 from the initial
  value `0`.  On the extended reals both are that finite sum: a sum does not depend on how it is scheduled, and the
  zero it starts from is the neutral element.
-/
import proofs.«167514_g84559316123741_cont_sun_m_110_2_alg».proof.Proof.Gen.KernelIdeal.Skeleton
import proofs.«167514_g84559316123741_cont_sun_m_110_2_alg».proof.Proof.Gen.ReferenceIdeal
import Idealize.ShloMosaic.PureOps.Ideal.Laws
import Idealize.ShloMosaic.Lib.Pipeline.Value
import Idealize.ShloMosaic.Lib.ValueIdx

noncomputable section

namespace Cert.Bridge

open Idealize.ShloMosaic Idealize.ShloMosaic.ValueIdx

/-- The row a result index names, as a number below 8192. -/
abbrev rowOf (i : (⟨1, ![8192]⟩ : Shape).Idx) : Fin 8192 := ⟨(i 0).val, (i 0).isLt⟩

/-- The row-wise dot product of two `[8192, 128]` arrays of extended reals. -/
def rowDot (a b : (⟨2, ![8192, 128]⟩ : Shape).Idx → EReal) : (⟨1, ![8192]⟩ : Shape).Idx → EReal :=
  fun i => ∑ k : Fin 128, a (ix2 (rowOf i) k) * b (ix2 (rowOf i) k)

/-- Inserting lane `k` into the reduced index `i` gives the index `(i, k)`. -/
theorem lift_eq (h : (⟨2, ![8192, 128]⟩ : Shape).Reduces [1] ⟨1, ![8192]⟩) (i : (⟨1, ![8192]⟩ : Shape).Idx) (k : Fin 128) :
    h.lift i k = ix2 (rowOf i) k :=
  funext fun d => Fin.ext (by
    match d with
    | ⟨0, _⟩ => rfl
    | ⟨1, _⟩ => rfl)

/-- THE KERNEL'S PAYLOAD: the product of the two loaded blocks summed over the lanes is the row-wise dot product. -/
theorem payload_eq (a b : Vec Ideal Cert.KernelIdeal.S8192x128 .f32) :
    Cert.KernelIdeal.Gen.k0_pay1 (F := Ideal) a b = rowDot a b := by
  funext i
  unfold Cert.KernelIdeal.Gen.k0_pay1
  refine (Ideal.multiReduction_add_single (φ := .f32) _ 0x00000000#32
    Cert.KernelIdeal.Facts₀.reduces_S8192x128_S8192 (.inl rfl) rfl i).trans ?_
  show ∑ k : Fin 128, _ = ∑ k : Fin 128, _
  refine Finset.sum_congr rfl fun k _ => ?_
  rw [lift_eq, shapeCast_self, shapeCast_self]
  rfl

/-- THE REFERENCE'S LAST TWO OPERATIONS: the product summed over axis 1 from the initial value zero is the same
    row-wise dot product. -/
theorem refReduce_eq (A B : FVec Ideal Cert.ReferenceIdeal.S8192x128 .f32) :
    Host.reduceAdd (F := Ideal) (mulf A B) (constant (F := Ideal) Cert.ReferenceIdeal.S_ .f32 0x00000000#32)
      Cert.ReferenceIdeal.Facts₀.reducesTo_S8192x128_S8192_d1 Cert.ReferenceIdeal.Facts₀.h_S_ = rowDot A B := by
  funext i
  unfold Host.reduceAdd
  rw [Ideal.hostReduceAdd_def]
  refine (Ideal.hostReduceAdd_single _ Cert.KernelIdeal.Facts₀.reduces_S8192x128_S8192 _ _ i).trans ?_
  show Ideal.ofBits .f32 0x00000000#32 + ∑ k : Fin 128, _ = ∑ k : Fin 128, _
  rw [Ideal.ofBits_zero_f32, zero_add]
  refine Finset.sum_congr rfl fun k _ => ?_
  rw [lift_eq]
  rfl

end Cert.Bridge

end
-- ==== Proof.KernelValue.lean ====
/-
  The kernel's result array.  The kernel has one grid point; each of its three windows is its whole array (block index
  `0` on every axis).  The body loads the two `[8192, 128]` operand arrays, multiplies them entry by entry and sums
  each row, and the one store writes all 8192 sums back.  So after the run the result array is the row-wise dot
  product of the two operand arrays AS THE REGION FINDS THEM — the arrays the host operations before the region wrote.
-/
import proofs.«167514_g84559316123741_cont_sun_m_110_2_alg».proof.Proof.Gen.KernelIdeal.Value
import proofs.«167514_g84559316123741_cont_sun_m_110_2_alg».proof.Proof.RowDot
import Idealize.ShloMosaic.Lib.Pipeline.Value

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin1 : (![0] : Fin 1 → Nat) = fun _ => 0 := funext fun a => by fin_cases a <;> rfl
theorem origin2 : (![0, 0] : Fin 2 → Nat) = fun _ => 0 := funext fun a => by fin_cases a <;> rfl

/-- Every window sits at block index `0` on every axis, at the one grid point. -/
theorem block_index_zero : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 1) = 0 :=
  (by decide +kernel : ∀ t : Fin grid0.N, _)

/-- A row-wise dot product depends on its operands through one row of each: if row `i` of `a`, `b` is row `i'` of
    `a'`, `b'`, entry `i` of the first product is entry `i'` of the second. -/
theorem rowDot_congr (a b a' b' : (⟨2, ![8192, 128]⟩ : Shape).Idx → EReal) (i i' : (⟨1, ![8192]⟩ : Shape).Idx)
    (ha : ∀ k : Fin 128, a (ix2 (rowOf i) k) = a' (ix2 (rowOf i') k))
    (hb : ∀ k : Fin 128, b (ix2 (rowOf i) k) = b' (ix2 (rowOf i') k)) :
    rowDot a b i = rowDot a' b' i' :=
  Finset.sum_congr rfl fun k _ => by rw [ha k, hb k]

set_option maxHeartbeats 4000000 in
/-- WHAT THE POINT WRITES BACK is the block of the row-wise dot product of the operand arrays. -/
theorem flushed_eq (c : Dev nD) (t : Fin cfg0.N) :
    (dats m 0 c).flushed 2 t
      = ((cfg0.win 2).blk t).view.read (Elt Ideal) (rowDot (V m c main_v177) (V m c main_v184)) := by
  rw [Value.flushed2]
  unfold out0_2
  rw [View.canon_unit_zero origin1]
  simp only [View.ld_unit_zero (S := S8192x128) origin2]
  rw [payload_eq]
  obtain ⟨e0, e1, e2, e3, e4⟩ := block_index_zero t
  funext j
  refine rowDot_congr _ _ _ _ _ _ (fun k => ?_) (fun k => ?_)
  · have h0 : ((cfg0.win 0).blk t).view.emb (ix2 (⟨(j 0).val, (j 0).isLt⟩ : Fin 8192) k)
        = ix2 (rowOf (((cfg0.win 2).blk t).view.emb j)) k := by
      funext a; apply Fin.ext
      match a with
      | ⟨0, _⟩ => show win0_0.index t (0 : Fin 2) * 8192 + 1 * (j 0).val = win0_2.index t (0 : Fin 1) * 8192 + 1 * (j 0).val; omega
      | ⟨1, _⟩ => show win0_0.index t (1 : Fin 2) * 128 + 1 * k.val = k.val; omega
    exact congrArg (V m c main_v177) h0
  · have h1 : ((cfg0.win 1).blk t).view.emb (ix2 (⟨(j 0).val, (j 0).isLt⟩ : Fin 8192) k)
        = ix2 (rowOf (((cfg0.win 2).blk t).view.emb j)) k := by
      funext a; apply Fin.ext
      match a with
      | ⟨0, _⟩ => show win0_1.index t (0 : Fin 2) * 8192 + 1 * (j 0).val = win0_2.index t (0 : Fin 1) * 8192 + 1 * (j 0).val; omega
      | ⟨1, _⟩ => show win0_1.index t (1 : Fin 2) * 128 + 1 * k.val = k.val; omega
    exact congrArg (V m c main_v184) h1

/-- An index of the result array is in the point's block iff its coordinate is in the block's range. -/
theorem mem_blk (t : Fin cfg0.N) (i : S8192.Idx) :
    i ∈ ((cfg0.win 2).blk t).view.set ↔ ∀ a : Fin 1, win0_2.index t a * S8192.size a ≤ (i a).val
      ∧ (i a).val < win0_2.index t a * S8192.size a + S8192.size a := by
  show i ∈ ((View.whole main_v185).slice (win0_2.rect t)).set ↔ _
  rw [View.set_slice_whole, Rect.mem_set_unit]
  exact Iff.rfl

/-- The one block is the whole result array. -/
theorem cover (i : S8192.Idx) : ∃ t : Fin cfg0.N, (cfg0.win 2).flush t = true ∧ i ∈ ((cfg0.win 2).blk t).view.set := by
  refine ⟨t0_0, flush0_2 _, ?_⟩
  rw [mem_blk]
  obtain ⟨-, -, -, -, e4⟩ := block_index_zero t0_0
  intro a
  match a with
  | ⟨0, _⟩ =>
    show win0_2.index t0_0 (0 : Fin 1) * 8192 ≤ (i 0).val ∧ (i 0).val < win0_2.index t0_0 (0 : Fin 1) * 8192 + 8192
    have hi : (i 0).val < 8192 := (i 0).isLt
    omega

/-- THE RESULT ARRAY after the run: the row-wise dot product of the operand arrays as the region finds them. -/
theorem final (c : Dev nD) :
    (dats m 0 c).arrAt 2 cfg0.N = rowDot (V m c main_v177) (V m c main_v184) :=
  (dats m 0 c).arrAt_eq_of_cover 2 _ (fun t _ => flushed_eq m c t) cover

end Cert.Bridge

end
-- ==== Proof.LibRowGather.lean ====
/-
  Gathering rows of a matrix.  `x[idx]` along axis 0 of an `[N, D]` matrix, with start indices of shape `[E, 1]`,
  lowers to a gather whose result `[E, D]` has, at `(e, k)`, the operand's element at `(r e, k)`: the row `r e` is the
  start index stored at `[e, 0]`, read as a signed integer and clamped into `[0, N - 1]`; the column is the result's own.
  Both coordinates are computed here from the gather's dimension numbers, for any extents.  Two consequences are what a
  value proof uses: the row read depends on the result's row only, and the column read is the result's column.
-/
import Idealize.ShloMosaic.Lib.ValueIdx

noncomputable section

namespace Cert.Lib.RowGather

open Idealize.ShloMosaic Idealize.ShloMosaic.ValueIdx

/-- The dimension numbers of a row gather: operand `[N, D]`, start indices `[E, 1]`, result `[E, D]`; the slice is one
    whole row (`[1, D]`), the row axis is collapsed, the result's axis 1 is the row's offset axis. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index `[e, 0]`: where the row number that result row `e` reads is stored. -/
abbrev startIdx {E : Nat} (e : Fin E) : (⟨2, ![E, 1]⟩ : Shape).Idx := ix2 e ⟨0, Nat.one_pos⟩

variable {N E D w : Nat}

/-- THE ROW READ: the start index stored at `[j 0, 0]`, signed, clamped into `[0, N - 1]`.  It depends on `j` through
    its row `j 0` only. -/
theorem operandIdx_row (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N E D wf).operandIdx j idx 0).val = min (idx (startIdx (j 0))).toInt.toNat (N - 1) := by
  show (rowsDims N E D wf).start j idx 0 + (rowsDims N E D wf).batchCoord j 0 + (rowsDims N E D wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N E D wf).startIndexMap from List.mem_singleton.mpr rfl)]
  have hsi : (rowsDims N E D wf).siIdx j ⟨List.idxOf (0 : Fin 2) (rowsDims N E D wf).startIndexMap,
      List.idxOf_lt_length_iff.2 (List.mem_singleton.mpr rfl)⟩ = startIdx (j 0) := by
    funext b; refine Fin.ext ?_
    match b with
    | ⟨0, _⟩ => rfl
    | ⟨1, _⟩ => rfl
  rw [hsi]
  rfl

/-- THE COLUMN READ: the result's own column. -/
theorem operandIdx_col (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N E D wf).operandIdx j idx 1).val = (j 1).val := by
  show (rowsDims N E D wf).start j idx 1 + (rowsDims N E D wf).batchCoord j 1 + (rowsDims N E D wf).offCoord j 1 = _
  rw [GatherDims.batchCoord_eq_zero _ _ _ List.not_mem_nil]
  have hs : (rowsDims N E D wf).start j idx 1 = 0 := by
    unfold GatherDims.start
    rw [dif_neg (show ¬ (1 : Fin 2) ∈ ([0] : List (Fin 2)) by decide)]
  have hk : (1 : Fin 2) ∈ (rowsDims N E D wf).sKept :=
    (GatherDims.mem_sKept _ _).mpr ⟨(show ¬ (1 : Fin 2) ∈ ([0] : List (Fin 2)) by decide), List.not_mem_nil⟩
  rw [hs]
  unfold GatherDims.offCoord
  rw [dif_pos hk]
  simp only [Nat.zero_add, Nat.add_zero]
  rfl

/-- Two result indices in one row read the same operand row. -/
theorem operandIdx_row_congr (wf : GatherDims.WF ⟨2, ![N, D]⟩ ⟨2, ![E, 1]⟩ ⟨2, ![E, D]⟩ [1] [0] [] [0] [] 1 ![1, D])
    (idx : IVec ⟨2, ![E, 1]⟩ w) (j j' : (⟨2, ![E, D]⟩ : Shape).Idx) (h : j 0 = j' 0) :
    ((rowsDims N E D wf).operandIdx j idx 0).val = ((rowsDims N E D wf).operandIdx j' idx 0).val := by
  rw [operandIdx_row, operandIdx_row, h]

end Cert.Lib.RowGather

end
-- ==== Proof.GatherDot.lean ====
/-
  The one place where the two programs differ before their last step: each message-passing term multiplies the node
  features `x : [50000, 128]` by a weight matrix `W : [128, 128]` and gathers 250000 rows by an index list.  The kernel
  multiplies first and gathers rows of the product, `(x · W)[s]`; the reference gathers first and multiplies the
  gathered rows, `x[s] · W`.  A row gather only SELECTS rows (row `e` of the result is row `r e` of the operand, `r e`
  the clamped start index, the same for both programs since both operands have 50000 rows), and row `e` of a product
  `y · W` is `∑ k, y[e, k] · W[k, ·]`, a function of row `e` of `y` alone.  So entry `(e, c)` of either side is
  `∑ k < 128, x[r e, k] · W[k, c]`.  Nothing here needs the entries to be finite: no term is moved across a sum.
-/
import proofs.«167514_g84559316123741_cont_sun_m_110_2_alg».proof.Proof.Gen.KernelIdeal
import proofs.«167514_g84559316123741_cont_sun_m_110_2_alg».proof.Proof.Gen.ReferenceIdeal.Read
import proofs.«167514_g84559316123741_cont_sun_m_110_2_alg».proof.Proof.LibRowGather
import Idealize.ShloMosaic.PureOps.Ideal.Laws
import Idealize.ShloMosaic.Lib.ValueIdx

noncomputable section

namespace Cert.Bridge

open Idealize.ShloMosaic Idealize.ShloMosaic.ValueIdx Cert.Lib.RowGather

/-! ## The product `[50000, 128] · [128, 128]` of the kernel, read at an index -/

theorem kdot_lhs0 (i : Cert.KernelIdeal.S50000x128.Idx)
    (q : Cert.KernelIdeal.dot_S50000x128_S128x128_S50000x128_1_0_0_1_n_n.contr.Idx) :
    (Cert.KernelIdeal.dot_S50000x128_S128x128_S50000x128_1_0_0_1_n_n.lhsIdx i q 0).val = (i 0).val := by
  unfold DotDims.lhsIdx
  rw [dif_neg (show ¬(0 : Fin Cert.KernelIdeal.S50000x128.rank) ∈ Cert.KernelIdeal.dot_S50000x128_S128x128_S50000x128_1_0_0_1_n_n.lhsBatch by decide),
    dif_pos (show (0 : Fin Cert.KernelIdeal.S50000x128.rank) ∈ Cert.KernelIdeal.dot_S50000x128_S128x128_S50000x128_1_0_0_1_n_n.lhsNonContracting by decide)]
  rfl
theorem kdot_lhs1 (i : Cert.KernelIdeal.S50000x128.Idx)
    (q : Cert.KernelIdeal.dot_S50000x128_S128x128_S50000x128_1_0_0_1_n_n.contr.Idx) :
    (Cert.KernelIdeal.dot_S50000x128_S128x128_S50000x128_1_0_0_1_n_n.lhsIdx i q 1).val = (q ⟨0, by decide⟩).val :=
  Cert.KernelIdeal.dot_S50000x128_S128x128_S50000x128_1_0_0_1_n_n.lhsIdx_val_of_single rfl i q
theorem kdot_rhs0 (i : Cert.KernelIdeal.S50000x128.Idx)
    (q : Cert.KernelIdeal.dot_S50000x128_S128x128_S50000x128_1_0_0_1_n_n.contr.Idx) :
    (Cert.KernelIdeal.dot_S50000x128_S128x128_S50000x128_1_0_0_1_n_n.rhsIdx i q 0).val = (q ⟨0, by decide⟩).val :=
  Cert.KernelIdeal.dot_S50000x128_S128x128_S50000x128_1_0_0_1_n_n.rhsIdx_val_of_single rfl i q
theorem kdot_rhs1 (i : Cert.KernelIdeal.S50000x128.Idx)
    (q : Cert.KernelIdeal.dot_S50000x128_S128x128_S50000x128_1_0_0_1_n_n.contr.Idx) :
    (Cert.KernelIdeal.dot_S50000x128_S128x128_S50000x128_1_0_0_1_n_n.rhsIdx i q 1).val = (i 1).val := by
  unfold DotDims.rhsIdx
  rw [dif_neg (show ¬(1 : Fin Cert.KernelIdeal.S128x128.rank) ∈ Cert.KernelIdeal.dot_S50000x128_S128x128_S50000x128_1_0_0_1_n_n.rhsBatch by decide),
    dif_pos (show (1 : Fin Cert.KernelIdeal.S128x128.rank) ∈ Cert.KernelIdeal.dot_S50000x128_S128x128_S50000x128_1_0_0_1_n_n.rhsNonContracting by decide)]
  rfl

/-- Entry `(r, c)` of the kernel's product `y · W` is `∑ k, y[r, k] · W[k, c]`. -/
theorem kdot_apply (y : FVec Ideal Cert.KernelIdeal.S50000x128 .f32) (W : FVec Ideal Cert.KernelIdeal.S128x128 .f32)
    (r : Fin 50000) (c : Fin 128) :
    Host.dotGeneral (F := Ideal) Cert.KernelIdeal.dot_S50000x128_S128x128_S50000x128_1_0_0_1_n_n none y W (ix2 r c)
      = ∑ k : Fin 128, y (ix2 r k) * W (ix2 k c) := by
  simp only [Host.dotGeneral]
  rw [Ideal.dotGeneral_apply, ← Equiv.sum_comp (ValueIdx.contrEquiv1 Cert.KernelIdeal.dot_S50000x128_S128x128_S50000x128_1_0_0_1_n_n 128 rfl rfl).symm]
  refine Finset.sum_congr rfl fun k _ => ?_
  have hk := ValueIdx.contrEquiv1_symm_val Cert.KernelIdeal.dot_S50000x128_S128x128_S50000x128_1_0_0_1_n_n 128 rfl rfl k
  have el : Cert.KernelIdeal.dot_S50000x128_S128x128_S50000x128_1_0_0_1_n_n.lhsIdx (ix2 r c) ((ValueIdx.contrEquiv1 Cert.KernelIdeal.dot_S50000x128_S128x128_S50000x128_1_0_0_1_n_n 128 rfl rfl).symm k) = ix2 r k := funext fun a => Fin.ext (by
    match a with
    | ⟨0, _⟩ => exact kdot_lhs0 _ _
    | ⟨1, _⟩ => exact (kdot_lhs1 _ _).trans hk)
  have er : Cert.KernelIdeal.dot_S50000x128_S128x128_S50000x128_1_0_0_1_n_n.rhsIdx (ix2 r c) ((ValueIdx.contrEquiv1 Cert.KernelIdeal.dot_S50000x128_S128x128_S50000x128_1_0_0_1_n_n 128 rfl rfl).symm k) = ix2 k c := funext fun a => Fin.ext (by
    match a with
    | ⟨0, _⟩ => exact (kdot_rhs0 _ _).trans hk
    | ⟨1, _⟩ => exact kdot_rhs1 _ _)
  rw [el, er]

/-! ## The product `[250000, 128] · [128, 128]` of the reference, read at an index -/

/-- Entry `(e, c)` of the reference's product `y · W` is `∑ k, y[e, k] · W[k, c]`. -/
theorem rdot_apply (y : FVec Ideal Cert.ReferenceIdeal.S250000x128 .f32) (W : FVec Ideal Cert.ReferenceIdeal.S128x128 .f32)
    (r : Fin 250000) (c : Fin 128) :
    Host.dotGeneral (F := Ideal) Cert.ReferenceIdeal.dot_S250000x128_S128x128_S250000x128_1_0_0_1_n_n none y W (ix2 r c)
      = ∑ k : Fin 128, y (ix2 r k) * W (ix2 k c) := by
  simp only [Host.dotGeneral]
  rw [Ideal.dotGeneral_apply, ← Equiv.sum_comp (ValueIdx.contrEquiv1 Cert.ReferenceIdeal.dot_S250000x128_S128x128_S250000x128_1_0_0_1_n_n 128 rfl rfl).symm]
  refine Finset.sum_congr rfl fun k _ => ?_
  have hk := ValueIdx.contrEquiv1_symm_val Cert.ReferenceIdeal.dot_S250000x128_S128x128_S250000x128_1_0_0_1_n_n 128 rfl rfl k
  have el : Cert.ReferenceIdeal.dot_S250000x128_S128x128_S250000x128_1_0_0_1_n_n.lhsIdx (ix2 r c) ((ValueIdx.contrEquiv1 Cert.ReferenceIdeal.dot_S250000x128_S128x128_S250000x128_1_0_0_1_n_n 128 rfl rfl).symm k) = ix2 r k := funext fun a => Fin.ext (by
    match a with
    | ⟨0, _⟩ => exact Cert.ReferenceIdeal.Read.lhs_main_v31_0 _ _
    | ⟨1, _⟩ => exact (Cert.ReferenceIdeal.Read.lhs_main_v31_1 _ _).trans hk)
  have er : Cert.ReferenceIdeal.dot_S250000x128_S128x128_S250000x128_1_0_0_1_n_n.rhsIdx (ix2 r c) ((ValueIdx.contrEquiv1 Cert.ReferenceIdeal.dot_S250000x128_S128x128_S250000x128_1_0_0_1_n_n 128 rfl rfl).symm k) = ix2 k c := funext fun a => Fin.ext (by
    match a with
    | ⟨0, _⟩ => exact (Cert.ReferenceIdeal.Read.rhs_main_v31_0 _ _).trans hk
    | ⟨1, _⟩ => exact Cert.ReferenceIdeal.Read.rhs_main_v31_1 _ _)
  rw [el, er]

/-! ## The two programs' row gathers are the row gather of `LibRowGather` -/

theorem kgather_eq : Cert.KernelIdeal.gather_S50000x128_S250000x1_S250000x128_1_0_n_n_0_1_1128
    = rowsDims 50000 250000 128 Cert.KernelIdeal.Facts₀.gather_S50000x128_S250000x1_S250000x128_1_0_n_n_0_1_1128_wf := rfl
theorem rgather_eq : Cert.ReferenceIdeal.gather_S50000x128_S250000x1_S250000x128_1_0_n_n_0_1_1128
    = rowsDims 50000 250000 128 Cert.ReferenceIdeal.Facts₀.gather_S50000x128_S250000x1_S250000x128_1_0_n_n_0_1_1128_wf := rfl

/-! ## Gathering rows commutes with multiplying on the right -/

/-- THE LAW: rows of a product are products of rows, so `(x · W)[s] = x[s] · W`, entry by entry, on the extended reals. -/
theorem gather_dot (x : FVec Ideal Cert.KernelIdeal.S50000x128 .f32) (W : FVec Ideal Cert.KernelIdeal.S128x128 .f32)
    (s : IVec Cert.KernelIdeal.S250000x1 32) :
    Host.gather Cert.KernelIdeal.gather_S50000x128_S250000x1_S250000x128_1_0_n_n_0_1_1128
        (Host.dotGeneral (F := Ideal) Cert.KernelIdeal.dot_S50000x128_S128x128_S50000x128_1_0_0_1_n_n none x W) s
      = Host.dotGeneral (F := Ideal) Cert.ReferenceIdeal.dot_S250000x128_S128x128_S250000x128_1_0_0_1_n_n none
          (Host.gather Cert.ReferenceIdeal.gather_S50000x128_S250000x1_S250000x128_1_0_n_n_0_1_1128 x s) W := by
  funext j
  obtain ⟨e, c, rfl⟩ : ∃ (e : Fin 250000) (c : Fin 128), j = ix2 e c := ⟨j 0, j 1, eq_ix2 j⟩
  rw [rdot_apply, kgather_eq, rgather_eq]
  unfold Host.gather
  -- the operand index the gather reads at `(e, c)`, by its coordinates
  obtain ⟨r, c', hrc⟩ : ∃ (r : Fin 50000) (c' : Fin 128),
      (rowsDims 50000 250000 128 Cert.KernelIdeal.Facts₀.gather_S50000x128_S250000x1_S250000x128_1_0_n_n_0_1_1128_wf).operandIdx
        (ix2 e c) s = ix2 r c' := ⟨_, _, eq_ix2 _⟩
  have hr : r.val = ((rowsDims 50000 250000 128
      Cert.KernelIdeal.Facts₀.gather_S50000x128_S250000x1_S250000x128_1_0_n_n_0_1_1128_wf).operandIdx (ix2 e c) s 0).val := by
    rw [hrc]
  have hc : c' = c := Fin.ext (by
    have h1 : c'.val = ((rowsDims 50000 250000 128
        Cert.KernelIdeal.Facts₀.gather_S50000x128_S250000x1_S250000x128_1_0_n_n_0_1_1128_wf).operandIdx (ix2 e c) s 1).val := by
      rw [hrc]
    exact h1.trans (operandIdx_col _ s (ix2 e c)))
  rw [hrc, kdot_apply, hc]
  refine Finset.sum_congr rfl fun k _ => ?_
  have hx : (ix2 r k : (⟨2, ![50000, 128]⟩ : Shape).Idx)
      = (rowsDims 50000 250000 128 Cert.ReferenceIdeal.Facts₀.gather_S50000x128_S250000x1_S250000x128_1_0_n_n_0_1_1128_wf).operandIdx
          (ix2 e k) s := by
    funext a; refine Fin.ext ?_
    match a with
    | ⟨0, _⟩ => exact hr.trans (operandIdx_row_congr _ s (ix2 e c) (ix2 e k) rfl)
    | ⟨1, _⟩ => exact (operandIdx_col _ s (ix2 e k)).symm
  rw [hx]

end Cert.Bridge

end
-- ==== Proof.HostPrefix.lean ====
/-
  The host operations before the kernel's region against the reference's.  Both programs build the node features
  `x` (the two embedding tables joined), the softmax weights, two layers of root transform plus two mean-normalised
  message-passing terms with a relu, the weighted sum of the layers, and the two gathers of the rows to score.  Written
  out as terms over the argument arrays the two computations are the same tree of operations, except in the four
  message terms, where the kernel has `(x · W)[s]` and the reference `x[s] · W` — equal by `gather_dot`.  The
  reference then multiplies the two gathered arrays and sums each row, which is the row-wise dot product of them
  (`refReduce_eq`).  So the reference's result is the row-wise dot product of the arrays the kernel's region is handed.
-/
import proofs.«167514_g84559316123741_cont_sun_m_110_2_alg».proof.Proof.Gen.KernelIdeal.Frame
import proofs.«167514_g84559316123741_cont_sun_m_110_2_alg».proof.Proof.Gen.ReferenceIdeal.Run
import proofs.«167514_g84559316123741_cont_sun_m_110_2_alg».proof.Proof.GatherDot
import proofs.«167514_g84559316123741_cont_sun_m_110_2_alg».proof.Proof.RowDot
import Idealize.ShloMosaic.Lib.StableHlo.Run

noncomputable section

namespace Cert.Bridge

open Idealize.ShloMosaic Idealize.ShloMosaic.TcCoe Idealize.SL.Sem Idealize.ShloMosaic.StableHlo

set_option maxRecDepth 65536 in
set_option maxHeartbeats 2000000000 in
/-- From memories that agree on the eleven arguments, the reference's result term is the row-wise dot product of the
    two operand arrays as the kernel's region finds them. -/
theorem host_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v186 (F := Ideal) m' c
      = rowDot (Cert.KernelIdeal.Gen.V m c Cert.KernelIdeal.main_v177) (Cert.KernelIdeal.Gen.V m c Cert.KernelIdeal.main_v184) := by
  obtain ⟨h0, h1, h2, h3, h4, h5, h6, h7, h8, h9, h10⟩ := hag
  unfold Cert.ReferenceIdeal.Value.res_main_v186
  rw [h0, h1, h2, h3, h4, h5, h6, h7, h8, h9, h10]
  refine (refReduce_eq _ _).trans ?_
  symm
  dsimp only [Cert.KernelIdeal.Gen.V]
  simp only [Cert.KernelIdeal.Gen.hostOps0, Cert.KernelIdeal.Gen.hostOps0_1, Cert.KernelIdeal.Gen.hostOps0_2, Cert.KernelIdeal.Gen.hostOps0_3, Cert.KernelIdeal.Gen.hostOps0_4,
    List.flatten_cons, List.flatten_nil, List.append_nil, List.cons_append, List.nil_append]
  after_results_simp
  simp only [gather_dot]
  rfl

end Cert.Bridge

end
-- ==== Proof.lean ====
/- The proof of `Cert.Claim` for a two-layer relational graph network scored by a dot-product decoder.

   Both programs compute, from two embedding tables, per-layer root and per-relation weight matrices, softmax layer
   weights and four edge lists, the node features after two layers of "root transform plus mean-normalised messages,
   then relu", their softmax-weighted sum with the input features, and finally, for 8192 (playlist, track) pairs,
   the dot product of the pair's two feature rows.  They differ in two places only.
   (1) A message term is `(x · W)[s]` in the kernel and `x[s] · W` in the reference.  A row gather selects rows and a
       row of a product is a function of the same row of the left factor, so the two are equal entry by entry
       (Proof/GatherDot.lean over Proof/LibRowGather.lean).
   (2) The last step is a lane sum of an elementwise product inside the kernel's body, and a host sum over axis 1 of the
       same product in the reference: both are `∑ k < 128, a[i, k] · b[i, k]` (Proof/RowDot.lean).
   Neither step moves a factor across a sum or cancels anything, so the equalities hold on all extended reals and the
   precondition (finite inputs) is never opened.
   Proof/KernelValue.lean reads the kernel's result array off its run (one grid point, whole-array blocks);
   Proof/HostPrefix.lean shows that the reference's result term is that same function of the arrays the kernel's
   region is handed.  The three frames are the generated frame certificates and the reference's generated run;
   the kernel's idealization rewrote nothing, so `preserves` is `True`. -/
import proofs.«167514_g84559316123741_cont_sun_m_110_2_alg».proof.Defs
import proofs.«167514_g84559316123741_cont_sun_m_110_2_alg».proof.Proof.Gen.Kernel
import proofs.«167514_g84559316123741_cont_sun_m_110_2_alg».proof.Proof.Gen.Kernel.Frame
import proofs.«167514_g84559316123741_cont_sun_m_110_2_alg».proof.Proof.Gen.KernelIdeal
import proofs.«167514_g84559316123741_cont_sun_m_110_2_alg».proof.Proof.Gen.KernelIdeal.Frame
import proofs.«167514_g84559316123741_cont_sun_m_110_2_alg».proof.Proof.Gen.KernelIdeal.Value
import proofs.«167514_g84559316123741_cont_sun_m_110_2_alg».proof.Proof.Gen.ReferenceIdeal
import proofs.«167514_g84559316123741_cont_sun_m_110_2_alg».proof.Proof.Gen.ReferenceIdeal.Run
import proofs.«167514_g84559316123741_cont_sun_m_110_2_alg».proof.Proof.Gen.ReferenceIdeal.Read
import proofs.«167514_g84559316123741_cont_sun_m_110_2_alg».proof.Proof.Gen.Pre_finite_inputs
import proofs.«167514_g84559316123741_cont_sun_m_110_2_alg».proof.Proof.KernelValue
import proofs.«167514_g84559316123741_cont_sun_m_110_2_alg».proof.Proof.HostPrefix
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the row-wise dot product of the two arrays of gathered feature rows, as the
    kernel's region finds them: the kernel by its body (`Bridge.final`), the reference by `Bridge.host_eq`. -/
theorem algebraic : Cert.algebraic_KernelIdeal_ReferenceIdeal := by
  intro m ρ m' ρ' _ hagree
  refine ⟨fun c => Cert.Bridge.rowDot (Cert.KernelIdeal.Gen.V m c Cert.KernelIdeal.main_v177)
      (Cert.KernelIdeal.Gen.V m c Cert.KernelIdeal.main_v184), ?_, ?_⟩
  · exact (θ_run Cert.KernelIdeal.defs _ _).mono
      (fun r h c => ⟨(h c).1.trans (Cert.Bridge.final m c), (h c).2⟩) (Cert.KernelIdeal.Value.run_blocks m ρ)
  · exact (θ_run Cert.ReferenceIdeal.defs _ _).mono
      (fun _ h c => ⟨(h c).1.trans (Cert.Bridge.host_eq m m' c (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
